-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64x64 .f32) (main_arg9 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S64x64 .f32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : IVec S1600000 32) (main_arg11 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 73
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x64, .f32⟩
  | .hbm, ⟨79, _⟩ => ⟨S_, .f32⟩
  | .hbm, ⟨80, _⟩ => ⟨S100000x64, .f32⟩
  | .hbm, ⟨81, _⟩ => ⟨S1600000x1, .i32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call1_cst : Ref sig .tc := ⟨.hbm, 67, rfl⟩
abbrev main_call1_v0 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run, with its result named.

  The program is three pallas_calls among stretches of host operations.  Its run is the run of six segments:
  host, region, host, region, host, region.  After the last segment every unscoped buffer of a core holds the
  last boundary's contents, so the result buffer holds those contents at the result's reference, and each argument
  its launch contents.  What the boundary contents ARE (three dense layers over three mean aggregations) is read
  in the sibling modules; this module only carries the result buffer through the run.
-/
import proofs.«116644_j76046690943450_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at the
    last boundary's contents at its reference, and every argument at its launch contents. -/
theorem run : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Result

end
-- ==== Proof.Aggregate.lean ====
/-
  The irregular part of a layer, which the kernel program and the reference share word for word: the in-degree of
  every node, and the mean over a node's incoming edges of the source nodes' feature rows.

  Edge `e` goes from node `src[e]` to node `dst[e]`.  The degree of node `n` is the number of edges with `dst[e] = n`
  (a scatter-add of ones into zeros), taken at least one, as a column.  The mean aggregation of features `h` gathers
  row `src[e]` of `h` for every edge (a negative `src[e]` counted from the end, as array indexing does), adds the
  gathered rows into row `dst[e]` of zeros, and divides every row by its degree.  Both programs spell these by the
  same host operations, so the proof never opens them: they are carried as the two functions below.  The bias of a
  layer, 64 numbers, reaches the kernel as one row of 64.
-/
import proofs.«116644_j76046690943450_1_alg».proof.Proof.Gen.KernelIdeal

noncomputable section

namespace Cert.Sage

open Cert.KernelIdeal Cert.KernelIdeal.Gen Idealize.ShloMosaic

variable {F : FTy → Type} [FloatOps F]

/-- The in-degree of every node, at least one, as a column. -/
def degree (dst : (⟨S1600000, .i32⟩ : BufTy).Contents (Elt F)) : (⟨S100000x1, .f32⟩ : BufTy).Contents (Elt F) :=
  broadcastInDim S100000x1 ![0] bcast_S100000_S100000x1_0
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The mean, over a node's incoming edges, of the source nodes' rows of `h`: gathered, summed into the
    destination rows, divided by the degree column `deg`. -/
def meanAgg (h : (⟨S100000x64, .f32⟩ : BufTy).Contents (Elt F)) (src dst : (⟨S1600000, .i32⟩ : BufTy).Contents (Elt F))
    (deg : (⟨S100000x1, .f32⟩ : BufTy).Contents (Elt F)) : (⟨S100000x64, .f32⟩ : BufTy).Contents (Elt F) :=
  Host.divf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))
    (broadcastInDim S100000x64 ![0, 1] bcast_S100000x1_S100000x64_0_1 deg)

end Cert.Sage

end
-- ==== Proof.Stretch.lean ====
/-
  The three stretches of host operations of the kernel program, each read from ANY contents `X` of the buffers it
  starts from: what it leaves in the buffers the next pallas_call stages (the mean aggregation of the current
  features, and the layer's bias as a row), and that it leaves alone every buffer it does not write.  The contents
  are a variable on purpose: nothing here depends on what the buffers held.
-/
import proofs.«116644_j76046690943450_1_alg».proof.Proof.Gen.KernelIdeal.Launch
import proofs.«116644_j76046690943450_1_alg».proof.Proof.Aggregate
import Idealize.ShloMosaic.Lib.StableHlo.Run

set_option maxRecDepth 16384

noncomputable section

namespace Cert.KernelIdeal.Stretch

open Cert.KernelIdeal Cert.KernelIdeal.Gen Cert.Sage Idealize.ShloMosaic Idealize.ShloMosaic.TcCoe Idealize.SL.Sem
open Idealize.ShloMosaic.StableHlo

variable {F : FTy → Type} [FloatOps F]

/-! ## The first stretch -/

set_option maxHeartbeats 4000000 in
/-- It leaves the mean aggregation of the features it finds in `main_arg0`, over the degree column it has just computed. -/
theorem agg0 (X : Valuation τ sig (Elt F)) :
    StableHlo.after hostOps0 X (Proc.devRef .tc main_v18)
      = meanAgg (X (Proc.devRef .tc main_arg0)) (X (Proc.devRef .tc main_arg10)) (X (Proc.devRef .tc main_arg11))
          (degree (X (Proc.devRef .tc main_arg11))) := by
  after_results_simp
  rfl

/-- It leaves the layer's bias as one row of 64. -/
theorem bias0 (X : Valuation τ sig (Elt F)) :
    StableHlo.after hostOps0 X (Proc.devRef .tc main_v19)
      = shapeCast S1x64 (X (Proc.devRef .tc main_arg3)) shapeCasts_S64_S1x64 := by
  after_results
  rfl

/-- It leaves the degree column. -/
theorem deg0 (X : Valuation τ sig (Elt F)) :
    StableHlo.after hostOps0 X (Proc.devRef .tc main_v6) = degree (X (Proc.devRef .tc main_arg11)) := by
  after_results
  rfl

/-! What it does not write it leaves as found. -/

theorem keep0_arg0 (X : Valuation τ sig (Elt F)) :
    StableHlo.after hostOps0 X (Proc.devRef .tc main_arg0) = X (Proc.devRef .tc main_arg0) := by
  after_results
theorem keep0_arg1 (X : Valuation τ sig (Elt F)) :
    StableHlo.after hostOps0 X (Proc.devRef .tc main_arg1) = X (Proc.devRef .tc main_arg1) := by
  after_results
theorem keep0_arg2 (X : Valuation τ sig (Elt F)) :
    StableHlo.after hostOps0 X (Proc.devRef .tc main_arg2) = X (Proc.devRef .tc main_arg2) := by
  after_results
theorem keep0_arg4 (X : Valuation τ sig (Elt F)) :
    StableHlo.after hostOps0 X (Proc.devRef .tc main_arg4) = X (Proc.devRef .tc main_arg4) := by
  after_results
theorem keep0_arg5 (X : Valuation τ sig (Elt F)) :
    StableHlo.after hostOps0 X (Proc.devRef .tc main_arg5) = X (Proc.devRef .tc main_arg5) := by
  after_results
theorem keep0_arg6 (X : Valuation τ sig (Elt F)) :
    StableHlo.after hostOps0 X (Proc.devRef .tc main_arg6) = X (Proc.devRef .tc main_arg6) := by
  after_results
theorem keep0_arg7 (X : Valuation τ sig (Elt F)) :
    StableHlo.after hostOps0 X (Proc.devRef .tc main_arg7) = X (Proc.devRef .tc main_arg7) := by
  after_results
theorem keep0_arg8 (X : Valuation τ sig (Elt F)) :
    StableHlo.after hostOps0 X (Proc.devRef .tc main_arg8) = X (Proc.devRef .tc main_arg8) := by
  after_results
theorem keep0_arg9 (X : Valuation τ sig (Elt F)) :
    StableHlo.after hostOps0 X (Proc.devRef .tc main_arg9) = X (Proc.devRef .tc main_arg9) := by
  after_results
theorem keep0_arg10 (X : Valuation τ sig (Elt F)) :
    StableHlo.after hostOps0 X (Proc.devRef .tc main_arg10) = X (Proc.devRef .tc main_arg10) := by
  after_results
theorem keep0_arg11 (X : Valuation τ sig (Elt F)) :
    StableHlo.after hostOps0 X (Proc.devRef .tc main_arg11) = X (Proc.devRef .tc main_arg11) := by
  after_results

/-! ## The second stretch -/

set_option maxHeartbeats 4000000 in
/-- It leaves the mean aggregation of the features it finds in `main_v20`, over the degree column the first stretch left. -/
theorem agg1 (X : Valuation τ sig (Elt F)) :
    StableHlo.after hostOps1 X (Proc.devRef .tc main_v32)
      = meanAgg (X (Proc.devRef .tc main_v20)) (X (Proc.devRef .tc main_arg10)) (X (Proc.devRef .tc main_arg11))
          (X (Proc.devRef .tc main_v6)) := by
  after_results_simp
  rfl

/-- It leaves the layer's bias as one row of 64. -/
theorem bias1 (X : Valuation τ sig (Elt F)) :
    StableHlo.after hostOps1 X (Proc.devRef .tc main_v33)
      = shapeCast S1x64 (X (Proc.devRef .tc main_arg6)) shapeCasts_S64_S1x64 := by
  after_results
  rfl

/-! What it does not write it leaves as found. -/

theorem keep1_v20 (X : Valuation τ sig (Elt F)) :
    StableHlo.after hostOps1 X (Proc.devRef .tc main_v20) = X (Proc.devRef .tc main_v20) := by
  after_results
theorem keep1_v6 (X : Valuation τ sig (Elt F)) :
    StableHlo.after hostOps1 X (Proc.devRef .tc main_v6) = X (Proc.devRef .tc main_v6) := by
  after_results
theorem keep1_arg4 (X : Valuation τ sig (Elt F)) :
    StableHlo.after hostOps1 X (Proc.devRef .tc main_arg4) = X (Proc.devRef .tc main_arg4) := by
  after_results
theorem keep1_arg5 (X : Valuation τ sig (Elt F)) :
    StableHlo.after hostOps1 X (Proc.devRef .tc main_arg5) = X (Proc.devRef .tc main_arg5) := by
  after_results
theorem keep1_arg7 (X : Valuation τ sig (Elt F)) :
    StableHlo.after hostOps1 X (Proc.devRef .tc main_arg7) = X (Proc.devRef .tc main_arg7) := by
  after_results
theorem keep1_arg8 (X : Valuation τ sig (Elt F)) :
    StableHlo.after hostOps1 X (Proc.devRef .tc main_arg8) = X (Proc.devRef .tc main_arg8) := by
  after_results
theorem keep1_arg9 (X : Valuation τ sig (Elt F)) :
    StableHlo.after hostOps1 X (Proc.devRef .tc main_arg9) = X (Proc.devRef .tc main_arg9) := by
  after_results
theorem keep1_arg10 (X : Valuation τ sig (Elt F)) :
    StableHlo.after hostOps1 X (Proc.devRef .tc main_arg10) = X (Proc.devRef .tc main_arg10) := by
  after_results
theorem keep1_arg11 (X : Valuation τ sig (Elt F)) :
    StableHlo.after hostOps1 X (Proc.devRef .tc main_arg11) = X (Proc.devRef .tc main_arg11) := by
  after_results

/-! ## The third stretch -/

set_option maxHeartbeats 4000000 in
/-- It leaves the mean aggregation of the features it finds in `main_v34`, over the degree column the first stretch left. -/
theorem agg2 (X : Valuation τ sig (Elt F)) :
    StableHlo.after hostOps2 X (Proc.devRef .tc main_v46)
      = meanAgg (X (Proc.devRef .tc main_v34)) (X (Proc.devRef .tc main_arg10)) (X (Proc.devRef .tc main_arg11))
          (X (Proc.devRef .tc main_v6)) := by
  after_results_simp
  rfl

/-- It leaves the layer's bias as one row of 64. -/
theorem bias2 (X : Valuation τ sig (Elt F)) :
    StableHlo.after hostOps2 X (Proc.devRef .tc main_v47)
      = shapeCast S1x64 (X (Proc.devRef .tc main_arg9)) shapeCasts_S64_S1x64 := by
  after_results
  rfl

/-! What it does not write it leaves as found. -/

theorem keep2_v34 (X : Valuation τ sig (Elt F)) :
    StableHlo.after hostOps2 X (Proc.devRef .tc main_v34) = X (Proc.devRef .tc main_v34) := by
  after_results
theorem keep2_arg7 (X : Valuation τ sig (Elt F)) :
    StableHlo.after hostOps2 X (Proc.devRef .tc main_arg7) = X (Proc.devRef .tc main_arg7) := by
  after_results
theorem keep2_arg8 (X : Valuation τ sig (Elt F)) :
    StableHlo.after hostOps2 X (Proc.devRef .tc main_arg8) = X (Proc.devRef .tc main_arg8) := by
  after_results

end Cert.KernelIdeal.Stretch

end
-- ==== Proof.Dense.lean ====
/-
  One dense layer of the network, read entry by entry.

  A layer takes the node features `x` and the aggregated neighbour features `a` (one row of 64 per node), two
  64 × 64 weight matrices and a bias row, and gives, at node `p` and output feature `q`,

      (Σ_k x[p, k] · ws[k, q]) + (Σ_k a[p, k] · wn[k, q]) + b[q],

  followed in the first two layers by the maximum with zero.  The kernel computes a block of 10000 rows of it at a
  time: two matrix products into zero accumulators (at the extended reals a product into a zero accumulator is the
  plain sum over the contracted index, no rounding and no order left in it), their sum, the bias row broadcast over
  the rows, and the maximum with the zero splat.  This module states that entry formula once, over any number of
  rows, and proves that each of the three kernel bodies' stored value is it at every entry of the block.
-/
import proofs.«116644_j76046690943450_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Sage

open Idealize.ShloMosaic Idealize.ShloMosaic.ValueIdx

/-- The entry `(p, q)` of a dense layer before its activation: the row `p` of the features against column `q` of the
    self weights, plus the row `p` of the aggregated features against column `q` of the neighbour weights, plus
    the bias at `q`. -/
def affineAt {R : ℕ} (x a : (⟨2, ![R, 64]⟩ : Shape).Idx → EReal) (ws wn : (⟨2, ![64, 64]⟩ : Shape).Idx → EReal)
    (b : Fin 64 → EReal) (p : Fin R) (q : Fin 64) : EReal :=
  (∑ k : Fin 64, x (ix2 p k) * ws (ix2 k q)) + (∑ k : Fin 64, a (ix2 p k) * wn (ix2 k q)) + b q

/-- Two entries are equal when the rows, the columns and the bias entries they read are. -/
theorem affineAt_congr {R R' : ℕ} {x a : (⟨2, ![R, 64]⟩ : Shape).Idx → EReal} {x' a' : (⟨2, ![R', 64]⟩ : Shape).Idx → EReal}
    {ws wn ws' wn' : (⟨2, ![64, 64]⟩ : Shape).Idx → EReal} {b b' : Fin 64 → EReal} {p : Fin R} {p' : Fin R'} {q q' : Fin 64}
    (hx : ∀ k, x (ix2 p k) = x' (ix2 p' k)) (ha : ∀ k, a (ix2 p k) = a' (ix2 p' k))
    (hws : ∀ k, ws (ix2 k q) = ws' (ix2 k q')) (hwn : ∀ k, wn (ix2 k q) = wn' (ix2 k q')) (hb : b q = b' q') :
    affineAt x a ws wn b p q = affineAt x' a' ws' wn' b' p' q' := by
  unfold affineAt; simp only [hx, ha, hws, hwn, hb]

end Cert.Sage

namespace Cert.KernelIdeal.Dense

open Cert.KernelIdeal Cert.KernelIdeal.Gen Cert.Sage Idealize.ShloMosaic Idealize.ShloMosaic.ValueIdx

/-! ## The kernel's matrix product at an entry -/

theorem lhs_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_col (i : S10000x64.Idx) (k : dot_S10000x64_S64x64_S10000x64_1_0_0_1_n_n.contr.Idx) :
    (dot_S10000x64_S64x64_S10000x64_1_0_0_1_n_n.lhsIdx i k 1).val = (k ⟨0, by decide⟩).val :=
  dot_S10000x64_S64x64_S10000x64_1_0_0_1_n_n.lhsIdx_val_of_single rfl i k
theorem rhs_row (i : S10000x64.Idx) (k : dot_S10000x64_S64x64_S10000x64_1_0_0_1_n_n.contr.Idx) :
    (dot_S10000x64_S64x64_S10000x64_1_0_0_1_n_n.rhsIdx i k 0).val = (k ⟨0, by decide⟩).val :=
  dot_S10000x64_S64x64_S10000x64_1_0_0_1_n_n.rhsIdx_val_of_single rfl i k
theorem rhs_col (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block's matrix product into the zero accumulator, at the entry `(p, q)`: the sum over the 64 contracted
    coordinates of row `p` of the left operand against column `q` of the right one. -/
theorem matmul_zero_apply (x : FVec Ideal S10000x64 .f32) (w : FVec Ideal S64x64 .f32) (p : Fin 10000) (q : Fin 64) :
    matmul dot_S10000x64_S64x64_S10000x64_1_0_0_1_n_n none x w (constant S10000x64 .f32 0x00000000#32) (ix2 p q)
      = ∑ k : Fin 64, x (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_row _ _
    | ⟨1, _⟩ => exact (lhs_col _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- The bias row, one row of 64, broadcast over the block's rows: at `(p, q)` it is the row's entry `q`. -/
theorem bias_apply (b : FVec Ideal S1x64 .f32) (p : Fin 10000) (q : Fin 64) :
    broadcastTo S10000x64 b broadcasts_S1x64_S10000x64 (ix2 p q) = b (ix2 (0 : Fin 1) q) :=
  broadcastTo_1b_ab_apply b broadcasts_S1x64_S10000x64 p q

/-! ## The three bodies' stored values -/

/-- The first layer's body stores, at `(p, q)` of its block, the layer's entry followed by the maximum with zero. -/
theorem pay0_apply (x0 x1 : FVec Ideal S10000x64 .f32) (x2 x3 : FVec Ideal S64x64 .f32) (x4 : FVec Ideal S1x64 .f32)
    (p : Fin 10000) (q : Fin 64) :
    k0_pay1 (F := Ideal) x0 x1 x2 x3 x4 (ix2 p q) = max (affineAt x0 x1 x2 x3 (fun j => x4 (ix2 (0 : Fin 1) j)) p q) 0 := by
  unfold k0_pay1 affineAt
  simp only [maximumf_apply, addf_apply, broadcast_apply, shapeCast_self, matmul_zero_apply, bias_apply]
  exact congrArg (max _) Ideal.ofBits_zero_f32

/-- The second layer's body likewise. -/
theorem pay1_apply (x0 x1 : FVec Ideal S10000x64 .f32) (x2 x3 : FVec Ideal S64x64 .f32) (x4 : FVec Ideal S1x64 .f32)
    (p : Fin 10000) (q : Fin 64) :
    k1_pay1 (F := Ideal) x0 x1 x2 x3 x4 (ix2 p q) = max (affineAt x0 x1 x2 x3 (fun j => x4 (ix2 (0 : Fin 1) j)) p q) 0 := by
  unfold k1_pay1 affineAt
  simp only [maximumf_apply, addf_apply, broadcast_apply, shapeCast_self, matmul_zero_apply, bias_apply]
  exact congrArg (max _) Ideal.ofBits_zero_f32

/-- The last layer's body stores the layer's entry itself: it has no activation. -/
theorem pay2_apply (x0 x1 : FVec Ideal S10000x64 .f32) (x2 x3 : FVec Ideal S64x64 .f32) (x4 : FVec Ideal S1x64 .f32)
    (p : Fin 10000) (q : Fin 64) :
    k2_pay1 (F := Ideal) x0 x1 x2 x3 x4 (ix2 p q) = affineAt x0 x1 x2 x3 (fun j => x4 (ix2 (0 : Fin 1) j)) p q := by
  unfold k2_pay1 affineAt
  simp only [addf_apply, shapeCast_self, matmul_zero_apply, bias_apply]

end Cert.KernelIdeal.Dense

end
-- ==== Proof.Layer0.lean ====
/-
  The first pallas_call's result array, as one function of the arrays it is entered with.

  The call runs its body at ten grid points.  Point `t` stages rows `10000·t … 10000·t + 9999` of the node features
  and of the aggregated features, the two whole weight matrices and the bias row, and writes back rows
  `10000·t … 10000·t + 9999` of the result.  The body's stored value at `(p, q)` of the block is the dense layer's
  entry on the staged rows (module Dense); a staged row `p` of point `t` IS row `10000·t + p` of the array, and the
  weights and the bias are staged whole, so the block written back is the block of ONE array function: the layer's
  entry at every `(row, q)`, followed by the maximum with zero.  The ten blocks tile the 100000 rows, so the array after the call is that
  function everywhere.
-/
import proofs.«116644_j76046690943450_1_alg».proof.Proof.Gen.KernelIdeal.Frame
import proofs.«116644_j76046690943450_1_alg».proof.Proof.Dense
import Idealize.ShloMosaic.Lib.Pipeline.Value

set_option maxRecDepth 16384

noncomputable section

namespace Cert.KernelIdeal.Layer0

open Cert.KernelIdeal Cert.KernelIdeal.Gen Cert.Sage Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The layer over whole arrays: entry `(r, q)` from row `r` of the features and of the aggregated features, the two
    weight matrices and the bias row. -/
def layer (h a : S100000x64.Idx → EReal) (ws wn : S64x64.Idx → EReal) (b : S1x64.Idx → EReal) : S100000x64.Idx → EReal :=
  fun i => max (affineAt (R := 100000) h a ws wn (fun j => b (ix2 (0 : Fin 1) j)) (i 0) (i 1)) 0

/-- The printed index maps over the ten points: the two row-blocked inputs move with the output's block along the rows,
    every other block index is zero, and the output's row-block index is the point's number. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every one of the ten row blocks is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- What point `t` writes back is block `t` of the layer over the arrays the call is entered with. -/
theorem flushed_eq (c : Dev nD) (t : Fin cfg0.N) :
    (dat0 V c).flushed 5 t = ((cfg0.win 5).blk t).view.read (Elt Ideal)
      (layer (V c main_arg0) (V c main_v18) (V c main_arg1) (V c main_arg2) (V c main_v19)) := by
  show (cfg0.win 5).cut (grid0.coords t) ((dat0 V c).after 5 t) = _
  rw [after0_5]
  unfold out0_5
  rw [View.canon_unit_zero zeros]
  simp only [View.ld_unit_zero (S := S10000x64) zeros, View.ld_unit_zero (S := S64x64) zeros, View.ld_unit_zero (S := S1x64) zeros]
  obtain ⟨e00, e01, e10, e11, e20, e21, e30, e31, e40, e41, e5b, e51⟩ := idx_facts t
  funext j
  obtain ⟨p, q, rfl⟩ : ∃ (p : Fin 10000) (q : Fin 64), j = ix2 p q := ⟨j 0, j 1, eq_ix2 j⟩
  refine (Dense.pay0_apply (iblk0 V c 0 t) (iblk0 V c 1 t) (iblk0 V c 2 t) (iblk0 V c 3 t) (iblk0 V c 4 t) p q).trans ?_
  show _ = layer (V c main_arg0) (V c main_v18) (V c main_arg1) (V c main_arg2) (V c main_v19) (((cfg0.win 5).blk t).view.emb (ix2 p q))
  unfold layer
  refine congrArg (fun z => max z 0) (affineAt_congr (fun k => ?_) (fun k => ?_) (fun k => ?_) (fun k => ?_) ?_)
  · show V c main_arg0 (((cfg0.win 0).blk t).view.emb (ix2 p k)) = V c main_arg0 (ix2 ((((cfg0.win 5).blk t).view.emb (ix2 p q)) 0) k)
    refine congrArg (V c main_arg0) (funext fun a => Fin.ext ?_)
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  · show V c main_v18 (((cfg0.win 1).blk t).view.emb (ix2 p k)) = V c main_v18 (ix2 ((((cfg0.win 5).blk t).view.emb (ix2 p q)) 0) k)
    refine congrArg (V c main_v18) (funext fun a => Fin.ext ?_)
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  · show V c main_arg1 (((cfg0.win 2).blk t).view.emb (ix2 k q)) = V c main_arg1 (ix2 k ((((cfg0.win 5).blk t).view.emb (ix2 p q)) 1))
    refine congrArg (V c main_arg1) (funext fun a => Fin.ext ?_)
    match a with
    | ⟨0, _⟩ => show win0_2.index t (0 : Fin 2) * 64 + 1 * k.val = k.val; omega
    | ⟨1, _⟩ => show win0_2.index t (1 : Fin 2) * 64 + 1 * q.val = win0_5.index t (1 : Fin 2) * 64 + 1 * q.val; omega
  · show V c main_arg2 (((cfg0.win 3).blk t).view.emb (ix2 k q)) = V c main_arg2 (ix2 k ((((cfg0.win 5).blk t).view.emb (ix2 p q)) 1))
    refine congrArg (V c main_arg2) (funext fun a => Fin.ext ?_)
    match a with
    | ⟨0, _⟩ => show win0_3.index t (0 : Fin 2) * 64 + 1 * k.val = k.val; omega
    | ⟨1, _⟩ => show win0_3.index t (1 : Fin 2) * 64 + 1 * q.val = win0_5.index t (1 : Fin 2) * 64 + 1 * q.val; omega
  · show V c main_v19 (((cfg0.win 4).blk t).view.emb (ix2 (0 : Fin 1) q)) = V c main_v19 (ix2 (0 : Fin 1) ((((cfg0.win 5).blk t).view.emb (ix2 p q)) 1))
    refine congrArg (V c main_v19) (funext fun a => Fin.ext ?_)
    match a with
    | ⟨0, _⟩ => show win0_4.index t (0 : Fin 2) * 1 + 1 * 0 = 0; omega
    | ⟨1, _⟩ => show win0_4.index t (1 : Fin 2) * 64 + 1 * q.val = win0_5.index t (1 : Fin 2) * 64 + 1 * q.val; omega

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v20).slice (win0_5.rect t)).set ↔ _
  rw [View.set_slice_whole, Rect.mem_set_unit]
  exact Iff.rfl

/-- Every entry of the result array is in the block of the point whose number is its row divided by 10000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The result array after the call is the layer over the arrays the call is entered with. -/
theorem final (c : Dev nD) :
    (dat0 V c).arrAt 5 cfg0.N = layer (V c main_arg0) (V c main_v18) (V c main_arg1) (V c main_arg2) (V c main_v19) :=
  (dat0 V c).arrAt_eq_of_cover 5 _ (fun t _ => flushed_eq V c t) cover

end Cert.KernelIdeal.Layer0

end
-- ==== Proof.Layer1.lean ====
/-
  The second pallas_call's result array, as one function of the arrays it is entered with.

  The call runs its body at ten grid points.  Point `t` stages rows `10000·t … 10000·t + 9999` of the node features
  and of the aggregated features, the two whole weight matrices and the bias row, and writes back rows
  `10000·t … 10000·t + 9999` of the result.  The body's stored value at `(p, q)` of the block is the dense layer's
  entry on the staged rows (module Dense); a staged row `p` of point `t` IS row `10000·t + p` of the array, and the
  weights and the bias are staged whole, so the block written back is the block of ONE array function: the layer's
  entry at every `(row, q)`, followed by the maximum with zero.  The ten blocks tile the 100000 rows, so the array after the call is that
  function everywhere.
-/
import proofs.«116644_j76046690943450_1_alg».proof.Proof.Gen.KernelIdeal.Frame
import proofs.«116644_j76046690943450_1_alg».proof.Proof.Dense
import Idealize.ShloMosaic.Lib.Pipeline.Value

set_option maxRecDepth 16384

noncomputable section

namespace Cert.KernelIdeal.Layer1

open Cert.KernelIdeal Cert.KernelIdeal.Gen Cert.Sage Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The layer over whole arrays: entry `(r, q)` from row `r` of the features and of the aggregated features, the two
    weight matrices and the bias row. -/
def layer (h a : S100000x64.Idx → EReal) (ws wn : S64x64.Idx → EReal) (b : S1x64.Idx → EReal) : S100000x64.Idx → EReal :=
  fun i => max (affineAt (R := 100000) h a ws wn (fun j => b (ix2 (0 : Fin 1) j)) (i 0) (i 1)) 0

/-- The printed index maps over the ten points: the two row-blocked inputs move with the output's block along the rows,
    every other block index is zero, and the output's row-block index is the point's number. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the ten row blocks is some point's. -/
theorem idx_onto : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of the layer over the arrays the call is entered with. -/
theorem flushed_eq (c : Dev nD) (t : Fin cfg1.N) :
    (dat1 V c).flushed 5 t = ((cfg1.win 5).blk t).view.read (Elt Ideal)
      (layer (V c main_v20) (V c main_v32) (V c main_arg4) (V c main_arg5) (V c main_v33)) := by
  show (cfg1.win 5).cut (grid1.coords t) ((dat1 V c).after 5 t) = _
  rw [after1_5]
  unfold out1_5
  rw [View.canon_unit_zero zeros]
  simp only [View.ld_unit_zero (S := S10000x64) zeros, View.ld_unit_zero (S := S64x64) zeros, View.ld_unit_zero (S := S1x64) zeros]
  obtain ⟨e00, e01, e10, e11, e20, e21, e30, e31, e40, e41, e5b, e51⟩ := idx_facts t
  funext j
  obtain ⟨p, q, rfl⟩ : ∃ (p : Fin 10000) (q : Fin 64), j = ix2 p q := ⟨j 0, j 1, eq_ix2 j⟩
  refine (Dense.pay1_apply (iblk1 V c 0 t) (iblk1 V c 1 t) (iblk1 V c 2 t) (iblk1 V c 3 t) (iblk1 V c 4 t) p q).trans ?_
  show _ = layer (V c main_v20) (V c main_v32) (V c main_arg4) (V c main_arg5) (V c main_v33) (((cfg1.win 5).blk t).view.emb (ix2 p q))
  unfold layer
  refine congrArg (fun z => max z 0) (affineAt_congr (fun k => ?_) (fun k => ?_) (fun k => ?_) (fun k => ?_) ?_)
  · show V c main_v20 (((cfg1.win 0).blk t).view.emb (ix2 p k)) = V c main_v20 (ix2 ((((cfg1.win 5).blk t).view.emb (ix2 p q)) 0) k)
    refine congrArg (V c main_v20) (funext fun a => Fin.ext ?_)
    match a with
    | ⟨0, _⟩ => show win1_0.index t (0 : Fin 2) * 10000 + 1 * p.val = win1_5.index t (0 : Fin 2) * 10000 + 1 * p.val; omega
    | ⟨1, _⟩ => show win1_0.index t (1 : Fin 2) * 64 + 1 * k.val = k.val; omega
  · show V c main_v32 (((cfg1.win 1).blk t).view.emb (ix2 p k)) = V c main_v32 (ix2 ((((cfg1.win 5).blk t).view.emb (ix2 p q)) 0) k)
    refine congrArg (V c main_v32) (funext fun a => Fin.ext ?_)
    match a with
    | ⟨0, _⟩ => show win1_1.index t (0 : Fin 2) * 10000 + 1 * p.val = win1_5.index t (0 : Fin 2) * 10000 + 1 * p.val; omega
    | ⟨1, _⟩ => show win1_1.index t (1 : Fin 2) * 64 + 1 * k.val = k.val; omega
  · show V c main_arg4 (((cfg1.win 2).blk t).view.emb (ix2 k q)) = V c main_arg4 (ix2 k ((((cfg1.win 5).blk t).view.emb (ix2 p q)) 1))
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 64 + 1 * q.val = win1_5.index t (1 : Fin 2) * 64 + 1 * q.val; omega
  · show V c main_arg5 (((cfg1.win 3).blk t).view.emb (ix2 k q)) = V c main_arg5 (ix2 k ((((cfg1.win 5).blk t).view.emb (ix2 p q)) 1))
    refine congrArg (V c main_arg5) (funext fun a => Fin.ext ?_)
    match a with
    | ⟨0, _⟩ => show win1_3.index t (0 : Fin 2) * 64 + 1 * k.val = k.val; omega
    | ⟨1, _⟩ => show win1_3.index t (1 : Fin 2) * 64 + 1 * q.val = win1_5.index t (1 : Fin 2) * 64 + 1 * q.val; omega
  · show V c main_v33 (((cfg1.win 4).blk t).view.emb (ix2 (0 : Fin 1) q)) = V c main_v33 (ix2 (0 : Fin 1) ((((cfg1.win 5).blk t).view.emb (ix2 p q)) 1))
    refine congrArg (V c main_v33) (funext fun a => Fin.ext ?_)
    match a with
    | ⟨0, _⟩ => show win1_4.index t (0 : Fin 2) * 1 + 1 * 0 = 0; omega
    | ⟨1, _⟩ => show win1_4.index t (1 : Fin 2) * 64 + 1 * q.val = win1_5.index t (1 : Fin 2) * 64 + 1 * q.val; omega

/-- An index of the result array is in point `t`'s block iff each coordinate is in the block's range on its axis. -/
theorem mem_blk (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v34).slice (win1_5.rect t)).set ↔ _
  rw [View.set_slice_whole, Rect.mem_set_unit]
  exact Iff.rfl

/-- Every entry of the result array is in the block of the point whose number is its row divided by 10000. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The result array after the call is the layer over the arrays the call is entered with. -/
theorem final (c : Dev nD) :
    (dat1 V c).arrAt 5 cfg1.N = layer (V c main_v20) (V c main_v32) (V c main_arg4) (V c main_arg5) (V c main_v33) :=
  (dat1 V c).arrAt_eq_of_cover 5 _ (fun t _ => flushed_eq V c t) cover

end Cert.KernelIdeal.Layer1

end
-- ==== Proof.Layer2.lean ====
/-
  The third pallas_call's result array, as one function of the arrays it is entered with.

  The call runs its body at ten grid points.  Point `t` stages rows `10000·t … 10000·t + 9999` of the node features
  and of the aggregated features, the two whole weight matrices and the bias row, and writes back rows
  `10000·t … 10000·t + 9999` of the result.  The body's stored value at `(p, q)` of the block is the dense layer's
  entry on the staged rows (module Dense); a staged row `p` of point `t` IS row `10000·t + p` of the array, and the
  weights and the bias are staged whole, so the block written back is the block of ONE array function: the layer's
  entry at every `(row, q)`.  The ten blocks tile the 100000 rows, so the array after the call is that
  function everywhere.
-/
import proofs.«116644_j76046690943450_1_alg».proof.Proof.Gen.KernelIdeal.Frame
import proofs.«116644_j76046690943450_1_alg».proof.Proof.Dense
import Idealize.ShloMosaic.Lib.Pipeline.Value

set_option maxRecDepth 16384

noncomputable section

namespace Cert.KernelIdeal.Layer2

open Cert.KernelIdeal Cert.KernelIdeal.Gen Cert.Sage Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros : (![0, 0] : Fin 2 → Nat) = fun _ => 0 := funext fun a => by fin_cases a <;> rfl

/-- The layer over whole arrays: entry `(r, q)` from row `r` of the features and of the aggregated features, the two
    weight matrices and the bias row. -/
def layer (h a : S100000x64.Idx → EReal) (ws wn : S64x64.Idx → EReal) (b : S1x64.Idx → EReal) : S100000x64.Idx → EReal :=
  fun i => affineAt (R := 100000) h a ws wn (fun j => b (ix2 (0 : Fin 1) j)) (i 0) (i 1)

/-- The printed index maps over the ten points: the two row-blocked inputs move with the output's block along the rows,
    every other block index is zero, and the output's row-block index is the point's number. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every one of the ten row blocks is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- What point `t` writes back is block `t` of the layer over the arrays the call is entered with. -/
theorem flushed_eq (c : Dev nD) (t : Fin cfg2.N) :
    (dat2 V c).flushed 5 t = ((cfg2.win 5).blk t).view.read (Elt Ideal)
      (layer (V c main_v34) (V c main_v46) (V c main_arg7) (V c main_arg8) (V c main_v47)) := by
  show (cfg2.win 5).cut (grid2.coords t) ((dat2 V c).after 5 t) = _
  rw [after2_5]
  unfold out2_5
  rw [View.canon_unit_zero zeros]
  simp only [View.ld_unit_zero (S := S10000x64) zeros, View.ld_unit_zero (S := S64x64) zeros, View.ld_unit_zero (S := S1x64) zeros]
  obtain ⟨e00, e01, e10, e11, e20, e21, e30, e31, e40, e41, e5b, e51⟩ := idx_facts t
  funext j
  obtain ⟨p, q, rfl⟩ : ∃ (p : Fin 10000) (q : Fin 64), j = ix2 p q := ⟨j 0, j 1, eq_ix2 j⟩
  refine (Dense.pay2_apply (iblk2 V c 0 t) (iblk2 V c 1 t) (iblk2 V c 2 t) (iblk2 V c 3 t) (iblk2 V c 4 t) p q).trans ?_
  show _ = layer (V c main_v34) (V c main_v46) (V c main_arg7) (V c main_arg8) (V c main_v47) (((cfg2.win 5).blk t).view.emb (ix2 p q))
  unfold layer
  refine affineAt_congr (fun k => ?_) (fun k => ?_) (fun k => ?_) (fun k => ?_) ?_
  · show V c main_v34 (((cfg2.win 0).blk t).view.emb (ix2 p k)) = V c main_v34 (ix2 ((((cfg2.win 5).blk t).view.emb (ix2 p q)) 0) k)
    refine congrArg (V c main_v34) (funext fun a => Fin.ext ?_)
    match a with
    | ⟨0, _⟩ => show win2_0.index t (0 : Fin 2) * 10000 + 1 * p.val = win2_5.index t (0 : Fin 2) * 10000 + 1 * p.val; omega
    | ⟨1, _⟩ => show win2_0.index t (1 : Fin 2) * 64 + 1 * k.val = k.val; omega
  · show V c main_v46 (((cfg2.win 1).blk t).view.emb (ix2 p k)) = V c main_v46 (ix2 ((((cfg2.win 5).blk t).view.emb (ix2 p q)) 0) k)
    refine congrArg (V c main_v46) (funext fun a => Fin.ext ?_)
    match a with
    | ⟨0, _⟩ => show win2_1.index t (0 : Fin 2) * 10000 + 1 * p.val = win2_5.index t (0 : Fin 2) * 10000 + 1 * p.val; omega
    | ⟨1, _⟩ => show win2_1.index t (1 : Fin 2) * 64 + 1 * k.val = k.val; omega
  · show V c main_arg7 (((cfg2.win 2).blk t).view.emb (ix2 k q)) = V c main_arg7 (ix2 k ((((cfg2.win 5).blk t).view.emb (ix2 p q)) 1))
    refine congrArg (V c main_arg7) (funext fun a => Fin.ext ?_)
    match a with
    | ⟨0, _⟩ => show win2_2.index t (0 : Fin 2) * 64 + 1 * k.val = k.val; omega
    | ⟨1, _⟩ => show win2_2.index t (1 : Fin 2) * 64 + 1 * q.val = win2_5.index t (1 : Fin 2) * 64 + 1 * q.val; omega
  · show V c main_arg8 (((cfg2.win 3).blk t).view.emb (ix2 k q)) = V c main_arg8 (ix2 k ((((cfg2.win 5).blk t).view.emb (ix2 p q)) 1))
    refine congrArg (V c main_arg8) (funext fun a => Fin.ext ?_)
    match a with
    | ⟨0, _⟩ => show win2_3.index t (0 : Fin 2) * 64 + 1 * k.val = k.val; omega
    | ⟨1, _⟩ => show win2_3.index t (1 : Fin 2) * 64 + 1 * q.val = win2_5.index t (1 : Fin 2) * 64 + 1 * q.val; omega
  · show V c main_v47 (((cfg2.win 4).blk t).view.emb (ix2 (0 : Fin 1) q)) = V c main_v47 (ix2 (0 : Fin 1) ((((cfg2.win 5).blk t).view.emb (ix2 p q)) 1))
    refine congrArg (V c main_v47) (funext fun a => Fin.ext ?_)
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega

/-- An index of the result array is in point `t`'s block iff each coordinate is in the block's range on its axis. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v48).slice (win2_5.rect t)).set ↔ _
  rw [View.set_slice_whole, Rect.mem_set_unit]
  exact Iff.rfl

/-- Every entry of the result array is in the block of the point whose number is its row divided by 10000. -/
theorem cover (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The result array after the call is the layer over the arrays the call is entered with. -/
theorem final (c : Dev nD) :
    (dat2 V c).arrAt 5 cfg2.N = layer (V c main_v34) (V c main_v46) (V c main_arg7) (V c main_arg8) (V c main_v47) :=
  (dat2 V c).arrAt_eq_of_cover 5 _ (fun t _ => flushed_eq V c t) cover

end Cert.KernelIdeal.Layer2

end
-- ==== Proof.Chain.lean ====
/-
  The kernel program's result as a function of its arguments.

  Between the launch and the return the buffers pass six boundaries: after the first stretch of host operations, after
  the first pallas_call, and so on.  This module follows, boundary by boundary, the few buffers the result depends on:
  the arguments (never written), the degree column (written once, by the first stretch), the current features and their
  mean aggregation, and the current layer's bias row.  A stretch is read by module Stretch, a pallas_call's result
  array by modules Layer0, Layer1 and Layer2; a buffer a pallas_call does not stage for writing keeps its contents
  across it.  At the last boundary the result buffer holds three dense layers, the first two activated, each over the
  mean aggregation of its input features.
-/
import proofs.«116644_j76046690943450_1_alg».proof.Proof.Gen.KernelIdeal.Frame
import proofs.«116644_j76046690943450_1_alg».proof.Proof.Stretch
import proofs.«116644_j76046690943450_1_alg».proof.Proof.Layer0
import proofs.«116644_j76046690943450_1_alg».proof.Proof.Layer1
import proofs.«116644_j76046690943450_1_alg».proof.Proof.Layer2

set_option maxRecDepth 16384

noncomputable section

namespace Cert.KernelIdeal.Chain

open Cert.KernelIdeal Cert.KernelIdeal.Gen Cert.Sage Idealize.ShloMosaic Idealize.ShloMosaic.TcCoe Idealize.SL.Sem

/-- The first layer's features: the activated dense layer of the input features and their mean aggregation. -/
def h1 (m : (ℓ : Loc nD τ sig) → Buf (Elt Ideal) ℓ) (c : Dev nD) : S100000x64.Idx → EReal :=
  Layer0.layer (m ((c : Thread nD τ).loc main_arg0)) (meanAgg (m ((c : Thread nD τ).loc main_arg0)) (m ((c : Thread nD τ).loc main_arg10)) (m ((c : Thread nD τ).loc main_arg11)) (degree (m ((c : Thread nD τ).loc main_arg11))))
    (m ((c : Thread nD τ).loc main_arg1)) (m ((c : Thread nD τ).loc main_arg2)) (shapeCast S1x64 (m ((c : Thread nD τ).loc main_arg3)) shapeCasts_S64_S1x64)

/-- The second layer's features. -/
def h2 (m : (ℓ : Loc nD τ sig) → Buf (Elt Ideal) ℓ) (c : Dev nD) : S100000x64.Idx → EReal :=
  Layer1.layer (h1 m c) (meanAgg (h1 m c) (m ((c : Thread nD τ).loc main_arg10)) (m ((c : Thread nD τ).loc main_arg11)) (degree (m ((c : Thread nD τ).loc main_arg11))))
    (m ((c : Thread nD τ).loc main_arg4)) (m ((c : Thread nD τ).loc main_arg5)) (shapeCast S1x64 (m ((c : Thread nD τ).loc main_arg6)) shapeCasts_S64_S1x64)

/-- The third layer's output, not activated: the program's result. -/
def out (m : (ℓ : Loc nD τ sig) → Buf (Elt Ideal) ℓ) (c : Dev nD) : S100000x64.Idx → EReal :=
  Layer2.layer (h2 m c) (meanAgg (h2 m c) (m ((c : Thread nD τ).loc main_arg10)) (m ((c : Thread nD τ).loc main_arg11)) (degree (m ((c : Thread nD τ).loc main_arg11))))
    (m ((c : Thread nD τ).loc main_arg7)) (m ((c : Thread nD τ).loc main_arg8)) (shapeCast S1x64 (m ((c : Thread nD τ).loc main_arg9)) shapeCasts_S64_S1x64)

variable (m : (ℓ : Loc nD τ sig) → Buf (Elt Ideal) ℓ) (ρ : Dev nD → PrngReg) (c : Dev nD)

theorem at1_arg0 : W1 m ρ c (Proc.devRef .tc main_arg0) = (m ((c : Thread nD τ).loc main_arg0)) :=
  Stretch.keep0_arg0 (W0 m ρ c)
theorem at1_arg1 : W1 m ρ c (Proc.devRef .tc main_arg1) = (m ((c : Thread nD τ).loc main_arg1)) :=
  Stretch.keep0_arg1 (W0 m ρ c)
theorem at1_arg2 : W1 m ρ c (Proc.devRef .tc main_arg2) = (m ((c : Thread nD τ).loc main_arg2)) :=
  Stretch.keep0_arg2 (W0 m ρ c)
theorem at1_arg4 : W1 m ρ c (Proc.devRef .tc main_arg4) = (m ((c : Thread nD τ).loc main_arg4)) :=
  Stretch.keep0_arg4 (W0 m ρ c)
theorem at1_arg5 : W1 m ρ c (Proc.devRef .tc main_arg5) = (m ((c : Thread nD τ).loc main_arg5)) :=
  Stretch.keep0_arg5 (W0 m ρ c)
theorem at1_arg6 : W1 m ρ c (Proc.devRef .tc main_arg6) = (m ((c : Thread nD τ).loc main_arg6)) :=
  Stretch.keep0_arg6 (W0 m ρ c)
theorem at1_arg7 : W1 m ρ c (Proc.devRef .tc main_arg7) = (m ((c : Thread nD τ).loc main_arg7)) :=
  Stretch.keep0_arg7 (W0 m ρ c)
theorem at1_arg8 : W1 m ρ c (Proc.devRef .tc main_arg8) = (m ((c : Thread nD τ).loc main_arg8)) :=
  Stretch.keep0_arg8 (W0 m ρ c)
theorem at1_arg9 : W1 m ρ c (Proc.devRef .tc main_arg9) = (m ((c : Thread nD τ).loc main_arg9)) :=
  Stretch.keep0_arg9 (W0 m ρ c)
theorem at1_arg10 : W1 m ρ c (Proc.devRef .tc main_arg10) = (m ((c : Thread nD τ).loc main_arg10)) :=
  Stretch.keep0_arg10 (W0 m ρ c)
theorem at1_arg11 : W1 m ρ c (Proc.devRef .tc main_arg11) = (m ((c : Thread nD τ).loc main_arg11)) :=
  Stretch.keep0_arg11 (W0 m ρ c)
theorem at1_v6 : W1 m ρ c (Proc.devRef .tc main_v6) = degree (m ((c : Thread nD τ).loc main_arg11)) :=
  Stretch.deg0 (W0 m ρ c)
theorem at1_v18 : W1 m ρ c (Proc.devRef .tc main_v18) = meanAgg (m ((c : Thread nD τ).loc main_arg0)) (m ((c : Thread nD τ).loc main_arg10)) (m ((c : Thread nD τ).loc main_arg11)) (degree (m ((c : Thread nD τ).loc main_arg11))) :=
  Stretch.agg0 (W0 m ρ c)
theorem at1_v19 : W1 m ρ c (Proc.devRef .tc main_v19) = shapeCast S1x64 (m ((c : Thread nD τ).loc main_arg3)) shapeCasts_S64_S1x64 :=
  Stretch.bias0 (W0 m ρ c)
/-- After the first pallas_call its result array is the first layer's features. -/
theorem at2_v20 : W2 m ρ c (Proc.devRef .tc main_v20) = h1 m c :=
  (W2_arr m ρ c 5).trans ((Layer0.final (V1 m ρ) c).trans
    (congr (congr (congr (congr (congrArg Layer0.layer (at1_arg0 m ρ c)) (at1_v18 m ρ c)) (at1_arg1 m ρ c)) (at1_arg2 m ρ c)) (at1_v19 m ρ c)))
theorem at2_v6 : W2 m ρ c (Proc.devRef .tc main_v6) = degree (m ((c : Thread nD τ).loc main_arg11)) :=
  (W2_of_ne m ρ c main_v6 (by decide)).trans (at1_v6 m ρ c)
theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)
theorem at2_arg6 : W2 m ρ c (Proc.devRef .tc main_arg6) = (m ((c : Thread nD τ).loc main_arg6)) :=
  (W2_of_ne m ρ c main_arg6 (by decide)).trans (at1_arg6 m ρ c)
theorem at2_arg7 : W2 m ρ c (Proc.devRef .tc main_arg7) = (m ((c : Thread nD τ).loc main_arg7)) :=
  (W2_of_ne m ρ c main_arg7 (by decide)).trans (at1_arg7 m ρ c)
theorem at2_arg8 : W2 m ρ c (Proc.devRef .tc main_arg8) = (m ((c : Thread nD τ).loc main_arg8)) :=
  (W2_of_ne m ρ c main_arg8 (by decide)).trans (at1_arg8 m ρ c)
theorem at2_arg9 : W2 m ρ c (Proc.devRef .tc main_arg9) = (m ((c : Thread nD τ).loc main_arg9)) :=
  (W2_of_ne m ρ c main_arg9 (by decide)).trans (at1_arg9 m ρ c)
theorem at2_arg10 : W2 m ρ c (Proc.devRef .tc main_arg10) = (m ((c : Thread nD τ).loc main_arg10)) :=
  (W2_of_ne m ρ c main_arg10 (by decide)).trans (at1_arg10 m ρ c)
theorem at2_arg11 : W2 m ρ c (Proc.devRef .tc main_arg11) = (m ((c : Thread nD τ).loc main_arg11)) :=
  (W2_of_ne m ρ c main_arg11 (by decide)).trans (at1_arg11 m ρ c)
theorem at3_v20 : W3 m ρ c (Proc.devRef .tc main_v20) = h1 m c :=
  (Stretch.keep1_v20 (W2 m ρ c)).trans (at2_v20 m ρ c)
theorem at3_v6 : W3 m ρ c (Proc.devRef .tc main_v6) = degree (m ((c : Thread nD τ).loc main_arg11)) :=
  (Stretch.keep1_v6 (W2 m ρ c)).trans (at2_v6 m ρ c)
theorem at3_arg4 : W3 m ρ c (Proc.devRef .tc main_arg4) = (m ((c : Thread nD τ).loc main_arg4)) :=
  (Stretch.keep1_arg4 (W2 m ρ c)).trans (at2_arg4 m ρ c)
theorem at3_arg5 : W3 m ρ c (Proc.devRef .tc main_arg5) = (m ((c : Thread nD τ).loc main_arg5)) :=
  (Stretch.keep1_arg5 (W2 m ρ c)).trans (at2_arg5 m ρ c)
theorem at3_arg7 : W3 m ρ c (Proc.devRef .tc main_arg7) = (m ((c : Thread nD τ).loc main_arg7)) :=
  (Stretch.keep1_arg7 (W2 m ρ c)).trans (at2_arg7 m ρ c)
theorem at3_arg8 : W3 m ρ c (Proc.devRef .tc main_arg8) = (m ((c : Thread nD τ).loc main_arg8)) :=
  (Stretch.keep1_arg8 (W2 m ρ c)).trans (at2_arg8 m ρ c)
theorem at3_arg9 : W3 m ρ c (Proc.devRef .tc main_arg9) = (m ((c : Thread nD τ).loc main_arg9)) :=
  (Stretch.keep1_arg9 (W2 m ρ c)).trans (at2_arg9 m ρ c)
theorem at3_arg10 : W3 m ρ c (Proc.devRef .tc main_arg10) = (m ((c : Thread nD τ).loc main_arg10)) :=
  (Stretch.keep1_arg10 (W2 m ρ c)).trans (at2_arg10 m ρ c)
theorem at3_arg11 : W3 m ρ c (Proc.devRef .tc main_arg11) = (m ((c : Thread nD τ).loc main_arg11)) :=
  (Stretch.keep1_arg11 (W2 m ρ c)).trans (at2_arg11 m ρ c)
theorem at3_v32 : W3 m ρ c (Proc.devRef .tc main_v32) = meanAgg (h1 m c) (m ((c : Thread nD τ).loc main_arg10)) (m ((c : Thread nD τ).loc main_arg11)) (degree (m ((c : Thread nD τ).loc main_arg11))) :=
  (Stretch.agg1 (W2 m ρ c)).trans
    (congr (congr (congr (congrArg (meanAgg (F := Ideal)) (at2_v20 m ρ c)) (at2_arg10 m ρ c)) (at2_arg11 m ρ c)) (at2_v6 m ρ c))
theorem at3_v33 : W3 m ρ c (Proc.devRef .tc main_v33) = shapeCast S1x64 (m ((c : Thread nD τ).loc main_arg6)) shapeCasts_S64_S1x64 :=
  (Stretch.bias1 (W2 m ρ c)).trans (congrArg (fun x => shapeCast S1x64 x shapeCasts_S64_S1x64) (at2_arg6 m ρ c))
/-- After the second pallas_call its result array is the second layer's features. -/
theorem at4_v34 : W4 m ρ c (Proc.devRef .tc main_v34) = h2 m c :=
  (W4_arr m ρ c 5).trans ((Layer1.final (V3 m ρ) c).trans
    (congr (congr (congr (congr (congrArg Layer1.layer (at3_v20 m ρ c)) (at3_v32 m ρ c)) (at3_arg4 m ρ c)) (at3_arg5 m ρ c)) (at3_v33 m ρ c)))
theorem at4_v6 : W4 m ρ c (Proc.devRef .tc main_v6) = degree (m ((c : Thread nD τ).loc main_arg11)) :=
  (W4_of_ne m ρ c main_v6 (by decide)).trans (at3_v6 m ρ c)
theorem at4_arg7 : W4 m ρ c (Proc.devRef .tc main_arg7) = (m ((c : Thread nD τ).loc main_arg7)) :=
  (W4_of_ne m ρ c main_arg7 (by decide)).trans (at3_arg7 m ρ c)
theorem at4_arg8 : W4 m ρ c (Proc.devRef .tc main_arg8) = (m ((c : Thread nD τ).loc main_arg8)) :=
  (W4_of_ne m ρ c main_arg8 (by decide)).trans (at3_arg8 m ρ c)
theorem at4_arg9 : W4 m ρ c (Proc.devRef .tc main_arg9) = (m ((c : Thread nD τ).loc main_arg9)) :=
  (W4_of_ne m ρ c main_arg9 (by decide)).trans (at3_arg9 m ρ c)
theorem at4_arg10 : W4 m ρ c (Proc.devRef .tc main_arg10) = (m ((c : Thread nD τ).loc main_arg10)) :=
  (W4_of_ne m ρ c main_arg10 (by decide)).trans (at3_arg10 m ρ c)
theorem at4_arg11 : W4 m ρ c (Proc.devRef .tc main_arg11) = (m ((c : Thread nD τ).loc main_arg11)) :=
  (W4_of_ne m ρ c main_arg11 (by decide)).trans (at3_arg11 m ρ c)
theorem at5_v34 : W5 m ρ c (Proc.devRef .tc main_v34) = h2 m c :=
  (Stretch.keep2_v34 (W4 m ρ c)).trans (at4_v34 m ρ c)
theorem at5_arg7 : W5 m ρ c (Proc.devRef .tc main_arg7) = (m ((c : Thread nD τ).loc main_arg7)) :=
  (Stretch.keep2_arg7 (W4 m ρ c)).trans (at4_arg7 m ρ c)
theorem at5_arg8 : W5 m ρ c (Proc.devRef .tc main_arg8) = (m ((c : Thread nD τ).loc main_arg8)) :=
  (Stretch.keep2_arg8 (W4 m ρ c)).trans (at4_arg8 m ρ c)
theorem at5_v46 : W5 m ρ c (Proc.devRef .tc main_v46) = meanAgg (h2 m c) (m ((c : Thread nD τ).loc main_arg10)) (m ((c : Thread nD τ).loc main_arg11)) (degree (m ((c : Thread nD τ).loc main_arg11))) :=
  (Stretch.agg2 (W4 m ρ c)).trans
    (congr (congr (congr (congrArg (meanAgg (F := Ideal)) (at4_v34 m ρ c)) (at4_arg10 m ρ c)) (at4_arg11 m ρ c)) (at4_v6 m ρ c))
theorem at5_v47 : W5 m ρ c (Proc.devRef .tc main_v47) = shapeCast S1x64 (m ((c : Thread nD τ).loc main_arg9)) shapeCasts_S64_S1x64 :=
  (Stretch.bias2 (W4 m ρ c)).trans (congrArg (fun x => shapeCast S1x64 x shapeCasts_S64_S1x64) (at4_arg9 m ρ c))
/-- After the third pallas_call the program's result buffer holds the third layer's output. -/
theorem at6_v48 : W6 m ρ c (Proc.devRef .tc main_v48) = out m c :=
  (W6_arr m ρ c 5).trans ((Layer2.final (V5 m ρ) c).trans
    (congr (congr (congr (congr (congrArg Layer2.layer (at5_v34 m ρ c)) (at5_v46 m ρ c)) (at5_arg7 m ρ c)) (at5_arg8 m ρ c)) (at5_v47 m ρ c)))

end Cert.KernelIdeal.Chain

end
-- ==== Proof.RefLayers.lean ====
/-
  The reference, layer by layer.

  The reference computes the same three layers on the host: for each layer two `dot_general`s (the features against
  the self weights, the mean aggregation against the neighbour weights), their sum, the bias broadcast over the rows,
  and for the first two layers the maximum with a zero array.  At the extended reals a `dot_general` entry is the plain
  sum over the contracted index, so a reference layer read at entry `(r, q)` is the dense layer's entry formula of
  module Dense, and the reference's whole result is three such layers over three mean aggregations.
-/
import proofs.«116644_j76046690943450_1_alg».proof.Proof.Gen.ReferenceIdeal.Read
import proofs.«116644_j76046690943450_1_alg».proof.Proof.Aggregate
import proofs.«116644_j76046690943450_1_alg».proof.Proof.Dense
import Idealize.ShloMosaic.Lib.ValueIdx
import Idealize.ShloMosaic.PureOps.Ideal.Laws

set_option maxRecDepth 16384

noncomputable section

namespace Cert.ReferenceIdeal.Layers

open Cert.ReferenceIdeal Cert.ReferenceIdeal.Gen Cert.ReferenceIdeal.Read Cert.Sage
open Idealize.ShloMosaic Idealize.ShloMosaic.TcCoe Idealize.SL.Sem Idealize.ShloMosaic.ValueIdx

variable {F : FTy → Type} [FloatOps F]

/-- A reference layer before its activation, as the host computes it. -/
def affine (h a : (⟨S100000x64, .f32⟩ : BufTy).Contents (Elt F)) (ws wn : (⟨S64x64, .f32⟩ : BufTy).Contents (Elt F)) (b : (⟨S64, .f32⟩ : BufTy).Contents (Elt F)) :
    (⟨S100000x64, .f32⟩ : BufTy).Contents (Elt F) :=
  addf (addf (Host.dotGeneral dot_S100000x64_S64x64_S100000x64_1_0_0_1_n_n none h ws) (Host.dotGeneral dot_S100000x64_S64x64_S100000x64_1_0_0_1_n_n none a wn))
    (broadcastInDim S100000x64 ![0, 1] bcast_S1x64_S100000x64_0_1 (broadcastInDim S1x64 ![1] bcast_S64_S1x64_1 b))

/-- The reference's activation: the maximum with a zero array. -/
def relu (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- A reference layer at an entry is the dense layer's entry formula. -/
theorem affine_apply (h a : (⟨S100000x64, .f32⟩ : BufTy).Contents (Elt Ideal)) (ws wn : (⟨S64x64, .f32⟩ : BufTy).Contents (Elt Ideal)) (b : (⟨S64, .f32⟩ : BufTy).Contents (Elt Ideal))
    (i : S100000x64.Idx) :
    affine (F := Ideal) h a ws wn b i = affineAt (R := 100000) h a ws wn (fun j => b (ix1 j)) (i 0) (i 1) := by
  have el : ∀ k : Fin 64, lidx_main_v19 i k = ix2 (i 0) k := fun k => funext fun d => by
    match d with
    | ⟨0, _⟩ => rfl
    | ⟨1, _⟩ => rfl
  have er : ∀ k : Fin 64, ridx_main_v19 i k = ix2 k (i 1) := fun k => funext fun d => by
    match d with
    | ⟨0, _⟩ => rfl
    | ⟨1, _⟩ => rfl
  have eb : idx_main_v22 (idx_main_v23 i) = ix1 (i 1) := funext fun d => by
    match d with
    | ⟨0, _⟩ => rfl
  show val_main_v19 (F := Ideal) h ws i + val_main_v19 (F := Ideal) a wn i + val_main_v23 (F := Ideal) b i = _
  rw [val_main_v19_apply, val_main_v19_apply, val_main_v23_apply, val_main_v22_apply]
  unfold affineAt
  simp only [el, er, eb]
  rfl

/-- The activation at an entry. -/
theorem relu_apply (x : (⟨S100000x64, .f32⟩ : BufTy).Contents (Elt Ideal)) (i : S100000x64.Idx) : relu (F := Ideal) x i = max (x i) 0 := by
  show max (x i) (Ideal.ofBits .f32 0x00000000#32) = _
  rw [Ideal.ofBits_zero_f32]

/-- The reference's result: three layers, the first two activated, each over the mean aggregation of its input. -/
def network (feat : (⟨S100000x64, .f32⟩ : BufTy).Contents (Elt F)) (ws0 wn0 : (⟨S64x64, .f32⟩ : BufTy).Contents (Elt F)) (b0 : (⟨S64, .f32⟩ : BufTy).Contents (Elt F))
    (ws1 wn1 : (⟨S64x64, .f32⟩ : BufTy).Contents (Elt F)) (b1 : (⟨S64, .f32⟩ : BufTy).Contents (Elt F)) (ws2 wn2 : (⟨S64x64, .f32⟩ : BufTy).Contents (Elt F)) (b2 : (⟨S64, .f32⟩ : BufTy).Contents (Elt F))
    (src dst : (⟨S1600000, .i32⟩ : BufTy).Contents (Elt F)) : (⟨S100000x64, .f32⟩ : BufTy).Contents (Elt F) :=
  let deg := degree dst
  let h1 := relu (affine feat (meanAgg feat src dst deg) ws0 wn0 b0)
  let h2 := relu (affine h1 (meanAgg h1 src dst deg) ws1 wn1 b1)
  affine h2 (meanAgg h2 src dst deg) ws2 wn2 b2

/-- The reference run's result term is that network of the arguments. -/
theorem result_eq (m : (ℓ : Loc nD τ sig) → Buf (Elt F) ℓ) (c : Dev nD) :
    Cert.ReferenceIdeal.Value.res_main_v62 m c
      = network (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v62
  rfl

end Cert.ReferenceIdeal.Layers

end
-- ==== Proof.Bridge.lean ====
/-
  The two results are one function of the arguments.

  The kernel program's result is three dense layers computed block by block, each over the mean aggregation of its
  input features; the reference's is three dense layers computed by host matrix products, each over the same mean
  aggregation.  A layer of either is, entry by entry, the dense layer's entry formula (modules Layer0–Layer2 and
  RefLayers), so layer by layer the two are equal functions, and the aggregation between them is the same function
  on both sides and is never opened.  No law of the extended reals beyond this entrywise identity is used, and so no
  finiteness of the inputs.
-/
import proofs.«116644_j76046690943450_1_alg».proof.Proof.Chain
import proofs.«116644_j76046690943450_1_alg».proof.Proof.RefLayers
import Idealize.ShloMosaic.Lib.ValueLayout

set_option maxRecDepth 16384

noncomputable section

namespace Cert.Proof.Bridge

open Cert.Sage Idealize.ShloMosaic Idealize.ShloMosaic.TcCoe Idealize.SL.Sem Idealize.ShloMosaic.ValueIdx

/-- The first pallas_call's layer is the reference's activated layer: entry by entry both are the dense layer's entry followed by the maximum with zero,
    the bias row's entry `(0, j)` being the bias's entry `j`. -/
theorem layer0_eq (h a : Cert.KernelIdeal.S100000x64.Idx → EReal) (ws wn : Cert.KernelIdeal.S64x64.Idx → EReal) (b : Cert.KernelIdeal.S64.Idx → EReal)
    (hc : Cert.KernelIdeal.S64.ShapeCasts Cert.KernelIdeal.S1x64) :
    Cert.KernelIdeal.Layer0.layer h a ws wn (shapeCast Cert.KernelIdeal.S1x64 b hc)
      = Cert.ReferenceIdeal.Layers.relu (F := Ideal) (Cert.ReferenceIdeal.Layers.affine (F := Ideal) h a ws wn b) := by
  funext i
  rw [Cert.ReferenceIdeal.Layers.relu_apply, Cert.ReferenceIdeal.Layers.affine_apply]
  unfold Cert.KernelIdeal.Layer0.layer
  have hb : (fun j : Fin 64 => shapeCast Cert.KernelIdeal.S1x64 b hc (ix2 (0 : Fin 1) j)) = fun j => b (ix1 j) :=
    funext fun j => shapeCast_a_1a_apply b hc 0 j
  rw [hb]

/-- The second pallas_call's layer is the reference's activated layer: entry by entry both are the dense layer's entry followed by the maximum with zero,
    the bias row's entry `(0, j)` being the bias's entry `j`. -/
theorem layer1_eq (h a : Cert.KernelIdeal.S100000x64.Idx → EReal) (ws wn : Cert.KernelIdeal.S64x64.Idx → EReal) (b : Cert.KernelIdeal.S64.Idx → EReal)
    (hc : Cert.KernelIdeal.S64.ShapeCasts Cert.KernelIdeal.S1x64) :
    Cert.KernelIdeal.Layer1.layer h a ws wn (shapeCast Cert.KernelIdeal.S1x64 b hc)
      = Cert.ReferenceIdeal.Layers.relu (F := Ideal) (Cert.ReferenceIdeal.Layers.affine (F := Ideal) h a ws wn b) := by
  funext i
  rw [Cert.ReferenceIdeal.Layers.relu_apply, Cert.ReferenceIdeal.Layers.affine_apply]
  unfold Cert.KernelIdeal.Layer1.layer
  have hb : (fun j : Fin 64 => shapeCast Cert.KernelIdeal.S1x64 b hc (ix2 (0 : Fin 1) j)) = fun j => b (ix1 j) :=
    funext fun j => shapeCast_a_1a_apply b hc 0 j
  rw [hb]

/-- The third pallas_call's layer is the reference's layer: entry by entry both are the dense layer's entry,
    the bias row's entry `(0, j)` being the bias's entry `j`. -/
theorem layer2_eq (h a : Cert.KernelIdeal.S100000x64.Idx → EReal) (ws wn : Cert.KernelIdeal.S64x64.Idx → EReal) (b : Cert.KernelIdeal.S64.Idx → EReal)
    (hc : Cert.KernelIdeal.S64.ShapeCasts Cert.KernelIdeal.S1x64) :
    Cert.KernelIdeal.Layer2.layer h a ws wn (shapeCast Cert.KernelIdeal.S1x64 b hc)
      = Cert.ReferenceIdeal.Layers.affine (F := Ideal) h a ws wn b := by
  funext i
  rw [Cert.ReferenceIdeal.Layers.affine_apply]
  unfold Cert.KernelIdeal.Layer2.layer
  have hb : (fun j : Fin 64 => shapeCast Cert.KernelIdeal.S1x64 b hc (ix2 (0 : Fin 1) j)) = fun j => b (ix1 j) :=
    funext fun j => shapeCast_a_1a_apply b hc 0 j
  rw [hb]

/-- The kernel program's result is the reference's network of the same arguments. -/
theorem out_eq_network (m : (ℓ : Loc Cert.KernelIdeal.nD Cert.KernelIdeal.τ Cert.KernelIdeal.sig) → Buf (Elt Ideal) ℓ) (c : Dev Cert.KernelIdeal.nD) :
    Cert.KernelIdeal.Chain.out m c
      = Cert.ReferenceIdeal.Layers.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
          (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  unfold Cert.KernelIdeal.Chain.out Cert.KernelIdeal.Chain.h2 Cert.KernelIdeal.Chain.h1 Cert.ReferenceIdeal.Layers.network
  rw [layer2_eq, layer1_eq, layer0_eq]

end Cert.Proof.Bridge

end
-- ==== Proof.lean ====
/-
  The certificate of a three-layer GraphSAGE forward pass: a kernel program whose dense layers are pallas_calls, against
  a reference that computes the same layers by host matrix products.

  Each layer takes the node features `h` (100000 rows of 64), forms the mean over every node's incoming edges of the
  source nodes' rows (a gather by `src`, a scatter-add by `dst`, a division by the in-degree taken at least one), and
  returns `h · W_self + mean · W_neigh + b`, followed in the first two layers by the maximum with zero.  The irregular
  part is the same host operations in both programs.  The dense part the kernel computes in ten blocks of 10000 rows,
  each by two matrix products into zero accumulators, and the reference by two whole `dot_general`s.  At the extended
  reals both are, at entry `(r, q)`, the same two sums over the 64 contracted coordinates plus the bias entry, so the
  two results are equal entry by entry; the identity needs no algebra beyond reading both sides at an entry, and in
  particular no finiteness of the inputs.

  The three frames: the two kernel programs' are the generated frame certificates; the reference's is its generated
  run with the result dropped.  The idealization rewrote no operation, so there is nothing to preserve.
-/
import proofs.«116644_j76046690943450_1_alg».proof.Defs
import proofs.«116644_j76046690943450_1_alg».proof.Proof.Gen.Kernel
import proofs.«116644_j76046690943450_1_alg».proof.Proof.Gen.Kernel.Skeleton
import proofs.«116644_j76046690943450_1_alg».proof.Proof.Gen.Kernel.Launch
import proofs.«116644_j76046690943450_1_alg».proof.Proof.Gen.Kernel.Points
import proofs.«116644_j76046690943450_1_alg».proof.Proof.Gen.Kernel.Frame
import proofs.«116644_j76046690943450_1_alg».proof.Proof.Gen.KernelIdeal
import proofs.«116644_j76046690943450_1_alg».proof.Proof.Gen.KernelIdeal.Skeleton
import proofs.«116644_j76046690943450_1_alg».proof.Proof.Gen.KernelIdeal.Launch
import proofs.«116644_j76046690943450_1_alg».proof.Proof.Gen.KernelIdeal.Points
import proofs.«116644_j76046690943450_1_alg».proof.Proof.Gen.KernelIdeal.Frame
import proofs.«116644_j76046690943450_1_alg».proof.Proof.Gen.ReferenceIdeal
import proofs.«116644_j76046690943450_1_alg».proof.Proof.Gen.ReferenceIdeal.Run
import proofs.«116644_j76046690943450_1_alg».proof.Proof.Gen.ReferenceIdeal.Read
import proofs.«116644_j76046690943450_1_alg».proof.Proof.Gen.Pre_finite_inputs
import proofs.«116644_j76046690943450_1_alg».proof.Proof.KernelRun
import proofs.«116644_j76046690943450_1_alg».proof.Proof.Bridge
import Idealize.ShloMosaic.Adequacy
import Idealize.ShloMosaic.Init

noncomputable section

namespace Cert.Proof

open Idealize.ShloMosaic Idealize.SL.Sem

/-- The reference terminates without a fault and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both idealized programs run to the end, and their results are the same
    array: the kernel program's is three dense layers over three mean aggregations (module Chain), the reference's is
    the same network (module RefLayers), and the two are one function of the arguments (module Bridge). -/
theorem algebraic : Cert.algebraic_KernelIdeal_ReferenceIdeal := by
  intro m ρ m' ρ' _ hagree
  refine ⟨fun c => Cert.KernelIdeal.Chain.out m c, ?_, ?_⟩
  · exact (θ_run Cert.KernelIdeal.defs _ _).mono
      (fun r h c => ⟨(h c).1.trans (Cert.KernelIdeal.Chain.at6_v48 m ρ c), (h c).2⟩) (Cert.KernelIdeal.Result.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Layers.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.Proof.Bridge.out_eq_network m c).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
